-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S16384x4096 : Shape := ⟨2, ![16384, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S16384x4096, .f32⟩
  | .hbm, ⟨11, _⟩ => ⟨S16384x4096, .bf16⟩
  | .hbm, ⟨12, _⟩ => ⟨S4096x4096, .bf16⟩
  | .hbm, ⟨13, _⟩ => ⟨S1x4096, .f32⟩
  | .hbm, ⟨14, _⟩ => ⟨S16384x4096, .f32⟩
  | .hbm, ⟨15, _⟩ => ⟨S4x4096x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S4096x16_S16x4096_S4096x4096_1_0_0_1_n_n_wf : DotDims.WF S4096x16 S16x4096 S4096x4096 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .bf16 = 32 ∨ (Rect.block (s := S16384x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.KernelPieces.lean ====
/-
  What one grid point leaves behind, as values.

  The accumulator tile lives in a scratch buffer across the eight points that share an output tile. At the first of the
  eight the body stores a zero tile, reads it back and stores `0 + x·wᵀ`; at the others it reads the tile the previous
  point left and stores `acc + x·wᵀ`; at the last it also reads the updated tile back, adds the bias row and stores the
  result into the output's staging buffer. Each of these is one store of a whole tile whose loads read whole buffers,
  so what the buffer holds afterwards is the stored value itself.
-/
import proofs.«150762_j67130338836603_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LoraValue

open Cert.KernelIdeal Cert.KernelIdeal.Gen

variable {F : FTy → Type} [FloatOps F]

/-- The zero offset of a whole-tile access. -/
theorem hz : (![0, 0] : Fin 2 → Nat) = fun _ => 0 := funext fun a => by fin_cases a <;> rfl

/-- The first of the eight points: the scratch ends at the zero tile plus this point's product. -/
theorem sout_A (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x512 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread,
    View.ld_unit_zero (S := S1024x1024) hz, View.ld_unit_zero (S := S1024x512) hz, View.ld_unit_zero (S := S1x1024) hz]

/-- A middle point: the scratch ends at what the previous point left plus this point's product. -/
theorem sout_B (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x512 .bf16) (x2 : Vec F S1x1024 .f32) (xs : Vec F S1024x1024 .f32) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h5.read_unread, h7.read_unread,
    View.ld_unit_zero (S := S1024x1024) hz, View.ld_unit_zero (S := S1024x512) hz, View.ld_unit_zero (S := S1x1024) hz]

/-- The last of the eight points: the scratch ends at what the previous point left plus this point's product, -/
theorem sout_C (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x512 .bf16) (x2 : Vec F S1x1024 .f32) (xs : Vec F S1024x1024 .f32) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1024x512) hz, View.ld_unit_zero (S := S1x1024) hz]

/-- and the output tile at that sum plus the bias row. -/
theorem out_C (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x512 .bf16) (x2 : Vec F S1x1024 .f32) (xs : Vec F S1024x1024 .f32) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1024x512) hz, View.ld_unit_zero (S := S1x1024) hz]

end Cert.KernelIdeal.LoraValue

end
-- ==== Proof.KernelSteps.lean ====
/-
  The accumulator from one grid point to the next.

  The grid visits, for each output tile, eight consecutive points, one per slab of the contracted axis. What the scratch
  tile holds after a point is: at the first of the eight, the zero tile plus that point's product of operand tiles; at
  each later one, what the previous point left plus that point's product. At the last of the eight the output tile is
  the scratch tile plus the bias row.
-/
import proofs.«150762_j67130338836603_2_alg».proof.Proof.KernelPieces

noncomputable section

open Idealize.ShloMosaic Idealize.ShloMosaic.TcCoe Idealize.SL.Sem
open Idealize.ShloMosaic.Pipeline (Dat)

namespace Cert.KernelIdeal.LoraValue

open Cert.KernelIdeal Cert.KernelIdeal.Gen

variable {F : FTy → Type} [FloatOps F]
variable (m : (ℓ : Loc nD τ sig) → Buf (Elt F) ℓ)

/-- The point before a grid point is a grid point. -/
theorem pred_lt (t : Fin cfg0.N) : t.val - 1 < cfg0.N := Nat.lt_of_le_of_lt (Nat.sub_le _ _) t.isLt

/-- After the first of an output tile's eight points the scratch holds the zero tile plus the point's product. -/
theorem scratch_first (c : Dev nD) (t : Fin cfg0.N) (h0 : t.val % 8 = 0) :
    (outsAt0 m c t.val t.isLt).2 = k0_pay2 (k0_pay1 (F := F)) (iblk m c 0 t) (iblk m c 1 t) := by
  have h1 : ¬t.val % 8 = 7 := by omega
  rw [outsAt0_A m c t h0 h1, sout_A]

/-- After any later point the scratch holds what the point before left plus the point's product. -/
theorem scratch_next (c : Dev nD) (t : Fin cfg0.N) (h0 : ¬t.val % 8 = 0) :
    (outsAt0 m c t.val t.isLt).2
      = k0_pay2 (outsAt0 m c (t.val - 1) (pred_lt t)).2 (iblk m c 0 t) (iblk m c 1 t) := by
  by_cases h1 : t.val % 8 = 7
  · rw [outsAt0_C m c t h0 h1, sout_C]
  · rw [outsAt0_B m c t h0 h1, sout_B]

/-- At the last of the eight points the output tile is the scratch tile plus the bias row. -/
theorem out_last (c : Dev nD) (t : Fin cfg0.N) (h1 : t.val % 8 = 7) :
    (outsAt0 m c t.val t.isLt).1 = k0_pay3 (outsAt0 m c t.val t.isLt).2 (iblk m c 2 t) := by
  have h0 : ¬t.val % 8 = 0 := by omega
  rw [outsAt0_C m c t h0 h1, out_C, sout_C]

end Cert.KernelIdeal.LoraValue

end
-- ==== Proof.KernelBlocks.lean ====
/-
  The operand tiles a grid point reads, as entries of the arrays the region finds.

  Grid point `t` of the 16 × 4 × 8 grid works on row tile `t / 32`, column tile `t / 8 mod 4` and slab `t mod 8` of the
  contracted axis. Its left operand tile is rows `1024·(t / 32) …` and columns `512·(t mod 8) …` of the row matrix, its
  right operand tile rows `1024·(t / 8 mod 4) …` and the same columns of the folded weight, its bias tile columns
  `1024·(t / 8 mod 4) …` of the bias row. The three arrays are what the host lines before the region computed: the
  input flattened to rows, the weight plus the scaled product of the adapter's factors, the bias as one row.
-/
import proofs.«150762_j67130338836603_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.LoraValue

open Cert.KernelIdeal Cert.KernelIdeal.Gen

variable {F : FTy → Type} [FloatOps F]
variable (m : (ℓ : Loc nD τ sig) → Buf (Elt F) ℓ)

/-- Which block of its array each window is on at grid point `t`. -/
theorem idx_facts : ∀ t : Fin cfg0.N,
    win0_0.index t 0 = t.val / 32 ∧ win0_0.index t 1 = t.val % 8 ∧
    win0_1.index t 0 = t.val / 8 % 4 ∧ win0_1.index t 1 = t.val % 8 ∧
    win0_2.index t 0 = 0 ∧ win0_2.index t 1 = t.val / 8 % 4 ∧
    win0_3.index t 0 = t.val / 32 ∧ win0_3.index t 1 = t.val / 8 % 4 :=
  (by decide +kernel : ∀ t : Fin grid0.N, _)

/-- The row matrix, the folded weight and the bias row as the region finds them. -/
def xArr (c : Dev nD) : Vec F S16384x4096 .bf16 := V m c main_v5
def wArr (c : Dev nD) : Vec F S4096x4096 .bf16 := V m c main_v6
def bArr (c : Dev nD) : Vec F S1x4096 .f32 := V m c main_v7

/-- The three operand tiles at grid point `t`, at their literal shapes. -/
abbrev xblk (c : Dev nD) (t : Fin cfg0.N) : Vec F S1024x512 .bf16 := iblk m c 0 t
abbrev wblk (c : Dev nD) (t : Fin cfg0.N) : Vec F S1024x512 .bf16 := iblk m c 1 t
abbrev bblk (c : Dev nD) (t : Fin cfg0.N) : Vec F S1x1024 .f32 := iblk m c 2 t

/-- The program's five arguments on core `c`, at their literal shapes. -/
abbrev argX (c : Dev nD) : FVec F S4x4096x4096 .f32 := m ((c : Thread nD τ).loc main_arg0)
abbrev argW (c : Dev nD) : FVec F S4096x4096 .f32 := m ((c : Thread nD τ).loc main_arg1)
abbrev argBias (c : Dev nD) : FVec F S4096 .f32 := m ((c : Thread nD τ).loc main_arg2)
abbrev argA (c : Dev nD) : FVec F S16x4096 .f32 := m ((c : Thread nD τ).loc main_arg3)
abbrev argB (c : Dev nD) : FVec F S4096x16 .f32 := m ((c : Thread nD τ).loc main_arg4)

/-- The left operand tile at point `t`, entry `(p, k)`. -/
theorem xblk_apply (c : Dev nD) (t : Fin cfg0.N) (p : Fin 1024) (k : Fin 512) :
    xblk m c t (ix2 p k)
      = xArr m c (ix2 ⟨(t.val / 32 * 1024 + p.val) % 16384, Nat.mod_lt _ (by decide)⟩
          ⟨(t.val % 8 * 512 + k.val) % 4096, Nat.mod_lt _ (by decide)⟩) := by
  have hN : t.val < 512 := lt_of_lt_of_eq t.isLt N_0
  obtain ⟨h00, h01, -⟩ := idx_facts t
  unfold xblk iblk xArr
  rw [View.read_apply]
  show V m c main_v5 _ = V m c main_v5 _
  refine congrArg (V m c main_v5) (funext fun a => Fin.ext ?_)
  match a with
  | ⟨0, _⟩ =>
    show win0_0.index t 0 * 1024 + 1 * p.val = (t.val / 32 * 1024 + p.val) % 16384
    rw [h00]; omega
  | ⟨1, _⟩ =>
    show win0_0.index t 1 * 512 + 1 * k.val = (t.val % 8 * 512 + k.val) % 4096
    rw [h01]; omega

/-- The right operand tile at point `t`, entry `(r, k)`. -/
theorem wblk_apply (c : Dev nD) (t : Fin cfg0.N) (r : Fin 1024) (k : Fin 512) :
    wblk m c t (ix2 r k)
      = wArr m c (ix2 ⟨(t.val / 8 % 4 * 1024 + r.val) % 4096, Nat.mod_lt _ (by decide)⟩
          ⟨(t.val % 8 * 512 + k.val) % 4096, Nat.mod_lt _ (by decide)⟩) := by
  have hN : t.val < 512 := lt_of_lt_of_eq t.isLt N_0
  obtain ⟨-, -, h10, h11, -⟩ := idx_facts t
  unfold wblk iblk wArr
  rw [View.read_apply]
  show V m c main_v6 _ = V m c main_v6 _
  refine congrArg (V m c main_v6) (funext fun a => Fin.ext ?_)
  match a with
  | ⟨0, _⟩ =>
    show win0_1.index t 0 * 1024 + 1 * r.val = (t.val / 8 % 4 * 1024 + r.val) % 4096
    rw [h10]; omega
  | ⟨1, _⟩ =>
    show win0_1.index t 1 * 512 + 1 * k.val = (t.val % 8 * 512 + k.val) % 4096
    rw [h11]; omega

/-- The bias tile at point `t`, column `r`. -/
theorem bblk_apply (c : Dev nD) (t : Fin cfg0.N) (r : Fin 1024) :
    bblk m c t (ix2 (0 : Fin 1) r)
      = bArr m c (ix2 (0 : Fin 1) ⟨(t.val / 8 % 4 * 1024 + r.val) % 4096, Nat.mod_lt _ (by decide)⟩) := by
  have hN : t.val < 512 := lt_of_lt_of_eq t.isLt N_0
  obtain ⟨-, -, -, -, h20, h21, -⟩ := idx_facts t
  unfold bblk iblk bArr
  rw [View.read_apply]
  show V m c main_v7 _ = V m c main_v7 _
  refine congrArg (V m c main_v7) (funext fun a => Fin.ext ?_)
  match a with
  | ⟨0, _⟩ =>
    show win0_2.index t 0 * 1 + 1 * 0 = 0
    rw [h20]
  | ⟨1, _⟩ =>
    show win0_2.index t 1 * 1024 + 1 * r.val = (t.val / 8 % 4 * 1024 + r.val) % 4096
    rw [h21]; omega

/-- The row matrix is the input flattened to rows (its change of float format written as the program writes it). -/
theorem xArr_eq (c : Dev nD) :
    xArr m c = truncf .bf16 (shapeCast S16384x4096 (argX m c) shapeCasts_S4x4096x4096_S16384x4096)
      bitsLt_bf16_f32 := by
  unfold xArr
  show StableHlo.after hostOps0 (fun b => m (c, b)) (Proc.devRef .tc main_v5) = _
  after_results
  all_goals rfl

/-- The folded weight is the weight plus the scaled product of the adapter's factors. -/
theorem wArr_eq (c : Dev nD) :
    wArr m c = truncf .bf16 (addf (argW m c)
        (mulf (broadcastInDim S4096x4096 ![] bcast_S_S4096x4096 (constant S_ .f32 0x3F800000#32))
          (Host.dotGeneral dot_S4096x16_S16x4096_S4096x4096_1_0_0_1_n_n none (argB m c) (argA m c))))
      bitsLt_bf16_f32 := by
  unfold wArr
  show StableHlo.after hostOps0 (fun b => m (c, b)) (Proc.devRef .tc main_v6) = _
  after_results
  all_goals rfl

/-- The bias row is the bias vector as one row. -/
theorem bArr_eq (c : Dev nD) :
    bArr m c = shapeCast S1x4096 (argBias m c) shapeCasts_S4096_S1x4096 := by
  unfold bArr
  show StableHlo.after hostOps0 (fun b => m (c, b)) (Proc.devRef .tc main_v7) = _
  after_results
  all_goals rfl

end Cert.KernelIdeal.LoraValue

end
-- ==== Proof.PayloadAt.lean ====
/-
  The body's three stored values read at an entry, on the extended reals.

  The zero tile reads `0` everywhere. The accumulation step stores, at `(p, r)`, the accumulator's entry plus the product
  of the two operand tiles contracted along their second axes, `∑ k, x (p, k) · w (r, k)` (the matrix unit starts from a
  zero tile, and on the extended reals there is no rounding or order to its sum). The epilogue stores the accumulator's
  entry plus the bias row's entry of the same column.
-/
import proofs.«150762_j67130338836603_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.LoraValue

open Cert.KernelIdeal Cert.KernelIdeal.Gen

/-- The tile product's dimension numbers: both operands contracted along axis 1. -/
abbrev tileDot : DotDims S1024x512 S1024x512 S1024x1024 := dot_S1024x512_S1024x512_S1024x1024_1_1_0_0_n_n

theorem tileDot_lhs_0 (i : S1024x1024.Idx) (q : tileDot.contr.Idx) : (tileDot.lhsIdx i q 0).val = (i 0).val := by
  unfold DotDims.lhsIdx
  rw [dif_neg (show ¬(0 : Fin S1024x512.rank) ∈ tileDot.lhsBatch by decide),
    dif_pos (show (0 : Fin S1024x512.rank) ∈ tileDot.lhsNonContracting by decide)]
  rfl
theorem tileDot_lhs_1 (i : S1024x1024.Idx) (q : tileDot.contr.Idx) :
    (tileDot.lhsIdx i q 1).val = (q ⟨0, by decide⟩).val :=
  tileDot.lhsIdx_val_of_single rfl i q
theorem tileDot_rhs_0 (i : S1024x1024.Idx) (q : tileDot.contr.Idx) : (tileDot.rhsIdx i q 0).val = (i 1).val := by
  unfold DotDims.rhsIdx
  rw [dif_neg (show ¬(0 : Fin S1024x512.rank) ∈ tileDot.rhsBatch by decide),
    dif_pos (show (0 : Fin S1024x512.rank) ∈ tileDot.rhsNonContracting by decide)]
  rfl
theorem tileDot_rhs_1 (i : S1024x1024.Idx) (q : tileDot.contr.Idx) :
    (tileDot.rhsIdx i q 1).val = (q ⟨0, by decide⟩).val :=
  tileDot.rhsIdx_val_of_single rfl i q

/-- The matrix unit's product into a zero tile, at `(p, r)`: `∑ k, x (p, k) · w (r, k)`. -/
theorem tile_product_apply (x0 x1 : FVec Ideal S1024x512 .bf16) (p r : Fin 1024) :
    matmul tileDot none x0 x1 (constant (F := Ideal) S1024x1024 .f32 0x00000000#32) (ix2 p r)
      = ∑ k : Fin 512, x0 (ix2 p k) * x1 (ix2 r k) := by
  simp only [matmul]
  rw [Ideal.matmul_constant_zero_apply, ← Equiv.sum_comp (contrEquiv1 tileDot 512 rfl rfl).symm]
  refine Finset.sum_congr rfl fun k _ => ?_
  have hk := contrEquiv1_symm_val tileDot 512 rfl rfl k
  have el : tileDot.lhsIdx (ix2 p r) ((contrEquiv1 tileDot 512 rfl rfl).symm k) = ix2 p k :=
    funext fun a => Fin.ext (by
      match a with
      | ⟨0, _⟩ => exact tileDot_lhs_0 _ _
      | ⟨1, _⟩ => exact (tileDot_lhs_1 _ _).trans hk)
  have er : tileDot.rhsIdx (ix2 p r) ((contrEquiv1 tileDot 512 rfl rfl).symm k) = ix2 r k :=
    funext fun a => Fin.ext (by
      match a with
      | ⟨0, _⟩ => exact tileDot_rhs_0 _ _
      | ⟨1, _⟩ => exact (tileDot_rhs_1 _ _).trans hk)
  rw [el, er]

/-- The zero tile reads `0`. -/
theorem pay1_apply (j : S1024x1024.Idx) : k0_pay1 (F := Ideal) j = 0 := by
  unfold k0_pay1
  simp only [shapeCast_self]
  exact Ideal.ofBits_zero_f32

/-- The accumulation step at `(p, r)`. -/
theorem pay2_apply (xs : Vec Ideal S1024x1024 .f32) (x0 x1 : Vec Ideal S1024x512 .bf16) (p r : Fin 1024) :
    k0_pay2 (F := Ideal) xs x0 x1 (ix2 p r) = xs (ix2 p r) + ∑ k : Fin 512, x0 (ix2 p k) * x1 (ix2 r k) := by
  unfold k0_pay2
  simp only [shapeCast_self]
  exact congrArg (xs (ix2 p r) + ·) (tile_product_apply x0 x1 p r)

/-- The epilogue at `(p, r)`: the accumulator's entry plus the bias row's entry of column `r`. -/
theorem pay3_apply (v : Vec Ideal S1024x1024 .f32) (b : Vec Ideal S1x1024 .f32) (p r : Fin 1024) :
    k0_pay3 (F := Ideal) v b (ix2 p r) = v (ix2 p r) + b (ix2 (0 : Fin 1) r) := by
  unfold k0_pay3
  simp only [shapeCast_self]
  exact congrArg (v (ix2 p r) + ·) (broadcastTo_1b_ab_apply b broadcasts_S1x1024_S1024x1024 p r)

end Cert.KernelIdeal.LoraValue

end
-- ==== Proof.KernelAcc.lean ====
/-
  The accumulator tile, entry by entry, after every grid point.

  For the output tile that grid point `n` works on, write `f k` for the product of entry `k` of row `p` of the row tile's
  rows with entry `k` of row `r` of the weight tile's rows (`k` runs over the whole contracted axis). Point `n` is the
  `(n mod 8)`-th of the tile's eight points and adds slab `n mod 8` of the contracted axis, so after it the scratch tile
  holds at `(p, r)` the sum of `f k` over `k < (n mod 8 + 1) · 512`: the zero tile and the first slab at the first point,
  one more slab at each later point. Only associativity of `+` and `0 + a = a` are used, so nothing is assumed of the
  entries. After the eighth point the sum runs over the whole axis and the output tile holds it plus the bias entry.
-/
import proofs.«150762_j67130338836603_2_alg».proof.Proof.KernelSteps
import proofs.«150762_j67130338836603_2_alg».proof.Proof.KernelBlocks
import proofs.«150762_j67130338836603_2_alg».proof.Proof.PayloadAt

noncomputable section

open Idealize.ShloMosaic Idealize.ShloMosaic.TcCoe Idealize.SL.Sem Idealize.ShloMosaic.ValueIdx

namespace Cert.KernelIdeal.LoraValue

open Cert.KernelIdeal Cert.KernelIdeal.Gen

variable (m : (ℓ : Loc nD τ sig) → Buf (Elt Ideal) ℓ)

/-- The product of entries `k` of the two rows that meet at `(p, r)` of the output tile grid point `n` works on. -/
def term (c : Dev nD) (n : ℕ) (p r : Fin 1024) (k : ℕ) : EReal :=
  (xArr m c : FVec Ideal S16384x4096 .bf16)
      (ix2 ⟨(n / 32 * 1024 + p.val) % 16384, Nat.mod_lt _ (by decide)⟩ ⟨k % 4096, Nat.mod_lt _ (by decide)⟩)
    * (wArr m c : FVec Ideal S4096x4096 .bf16)
      (ix2 ⟨(n / 8 % 4 * 1024 + r.val) % 4096, Nat.mod_lt _ (by decide)⟩ ⟨k % 4096, Nat.mod_lt _ (by decide)⟩)

/-- One point's product of operand tiles is the slab of terms it covers. -/
theorem slab (c : Dev nD) (t : Fin cfg0.N) (p r : Fin 1024) :
    ∑ k : Fin 512, xblk m c t (ix2 p k) * wblk m c t (ix2 r k)
      = ∑ k ∈ Finset.range 512, term m c t.val p r (t.val % 8 * 512 + k) := by
  rw [Finset.sum_range]
  refine Finset.sum_congr rfl fun k _ => ?_
  rw [xblk_apply, wblk_apply]
  rfl

/-- A sum over the first `j` slabs and slab `j` is the sum over the first `j + 1` slabs. -/
theorem grow (f : ℕ → EReal) (j : ℕ) :
    ∑ k ∈ Finset.range (j * 512), f k + ∑ k ∈ Finset.range 512, f (j * 512 + k) = ∑ k ∈ Finset.range ((j + 1) * 512), f k := by
  rw [Nat.add_mul, Nat.one_mul, Finset.sum_range_add]

/-- What the scratch tile holds after grid point `n`. -/
theorem acc_inv (c : Dev nD) : ∀ (n : ℕ) (h : n < cfg0.N) (p r : Fin 1024),
    (outsAt0 m c n h).2 (ix2 p r) = ∑ k ∈ Finset.range ((n % 8 + 1) * 512), term m c n p r k
  | 0, h, p, r => by
    refine (congrFun (scratch_first m c ⟨0, h⟩ (Nat.zero_mod 8)) (ix2 p r)).trans ?_
    refine (pay2_apply _ (xblk m c ⟨0, h⟩) (wblk m c ⟨0, h⟩) p r).trans ?_
    rw [pay1_apply, zero_add, slab m c ⟨0, h⟩ p r]
    show ∑ k ∈ Finset.range 512, term m c 0 p r (0 % 8 * 512 + k) = ∑ k ∈ Finset.range ((0 % 8 + 1) * 512), term m c 0 p r k
    simp only [Nat.zero_mod, Nat.zero_mul, Nat.zero_add, Nat.one_mul]
  | n + 1, h, p, r => by
    have hN : n + 1 < 512 := lt_of_lt_of_eq h N_0
    by_cases h0 : (n + 1) % 8 = 0
    · refine (congrFun (scratch_first m c ⟨n + 1, h⟩ h0) (ix2 p r)).trans ?_
      refine (pay2_apply _ (xblk m c ⟨n + 1, h⟩) (wblk m c ⟨n + 1, h⟩) p r).trans ?_
      rw [pay1_apply, zero_add, slab m c ⟨n + 1, h⟩ p r]
      show ∑ k ∈ Finset.range 512, term m c (n + 1) p r ((n + 1) % 8 * 512 + k)
        = ∑ k ∈ Finset.range (((n + 1) % 8 + 1) * 512), term m c (n + 1) p r k
      rw [h0]
      simp only [Nat.zero_mul, Nat.zero_add, Nat.one_mul]
    · have ih := acc_inv c n (Nat.lt_of_succ_lt h) p r
      refine (congrFun (scratch_next m c ⟨n + 1, h⟩ h0) (ix2 p r)).trans ?_
      refine (pay2_apply _ (xblk m c ⟨n + 1, h⟩) (wblk m c ⟨n + 1, h⟩) p r).trans ?_
      rw [slab m c ⟨n + 1, h⟩ p r]
      show (outsAt0 m c n _).2 (ix2 p r) + ∑ k ∈ Finset.range 512, term m c (n + 1) p r ((n + 1) % 8 * 512 + k)
        = ∑ k ∈ Finset.range (((n + 1) % 8 + 1) * 512), term m c (n + 1) p r k
      rw [ih, ← grow (term m c (n + 1) p r) ((n + 1) % 8)]
      have e1 : n % 8 + 1 = (n + 1) % 8 := by omega
      have e2 : n / 32 = (n + 1) / 32 := by omega
      have e3 : n / 8 % 4 = (n + 1) / 8 % 4 := by omega
      rw [e1]
      refine congrArg (· + _) (Finset.sum_congr rfl fun k _ => ?_)
      unfold term
      simp only [e2, e3]

/-- The rows and columns of the arrays that meet in entry `(p, r)` of point `t`'s output tile. -/
abbrev rowOf (t : Fin cfg0.N) (p : Fin 1024) : Fin 16384 := ⟨(t.val / 32 * 1024 + p.val) % 16384, Nat.mod_lt _ (by decide)⟩
abbrev colOf (t : Fin cfg0.N) (r : Fin 1024) : Fin 4096 := ⟨(t.val / 8 % 4 * 1024 + r.val) % 4096, Nat.mod_lt _ (by decide)⟩

/-- Entry `(a, o)` of the kernel's result before it is unflattened: row `a` of the row matrix against row `o` of the
    folded weight, plus the bias entry `o`. -/
def outEntry (c : Dev nD) (a : Fin 16384) (o : Fin 4096) : EReal :=
  ∑ k : Fin 4096, (xArr m c : FVec Ideal S16384x4096 .bf16) (ix2 a k) * (wArr m c : FVec Ideal S4096x4096 .bf16) (ix2 o k)
    + (bArr m c : FVec Ideal S1x4096 .f32) (ix2 (0 : Fin 1) o)

/-- At the last of an output tile's eight points the tile holds `outEntry` at its rows and columns. -/
theorem tile_entry (c : Dev nD) (t : Fin cfg0.N) (h7 : t.val % 8 = 7) (p r : Fin 1024) :
    (outsAt0 m c t.val t.isLt).1 (ix2 p r) = outEntry m c (rowOf t p) (colOf t r) := by
  refine (congrFun (out_last m c t h7) (ix2 p r)).trans ?_
  refine (pay3_apply _ (bblk m c t) p r).trans ?_
  rw [acc_inv m c t.val t.isLt p r, bblk_apply, h7]
  show ∑ k ∈ Finset.range 4096, term m c t.val p r k + _ = _
  rw [Finset.sum_range]
  unfold outEntry
  refine congrArg (· + _) (Finset.sum_congr rfl fun k _ => ?_)
  unfold term
  have hk : (⟨k.val % 4096, Nat.mod_lt _ (by decide)⟩ : Fin 4096) = k := Fin.ext (Nat.mod_eq_of_lt k.isLt)
  rw [hk]

/-- The same at any index of the tile. -/
theorem tile_entry_idx (c : Dev nD) (t : Fin cfg0.N) (h7 : t.val % 8 = 7) (y : S1024x1024.Idx) :
    (outsAt0 m c t.val t.isLt).1 y = outEntry m c (rowOf t (y 0)) (colOf t (y 1)) := by
  obtain ⟨p, r, rfl⟩ : ∃ (p r : Fin 1024), y = ix2 p r := ⟨y 0, y 1, eq_ix2 y⟩
  exact tile_entry m c t h7 p r

end Cert.KernelIdeal.LoraValue

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.KernelArrays.lean ====
/-
  The three arrays the region reads, entry by entry, on the extended reals.

  Row `a` of the row matrix is position `(a / 4096, a mod 4096)` of the input (a change of float format is the identity
  here). The folded weight at `(o, i)` is `W (o, i) + s · ∑ r, B (o, r) · A (r, i)` with `s` the scale's constant. The bias row
  at column `o` is the bias vector's entry `o`.
-/
import proofs.«150762_j67130338836603_2_alg».proof.Proof.KernelBlocks
import proofs.«150762_j67130338836603_2_alg».proof.Proof.LibBcast
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.LoraValue

open Cert.KernelIdeal Cert.KernelIdeal.Gen

/-- The dimension numbers of the product of the adapter's factors: `[4096, 16] · [16, 4096]`. -/
abbrev foldDot : DotDims S4096x16 S16x4096 S4096x4096 := dot_S4096x16_S16x4096_S4096x4096_1_0_0_1_n_n

theorem foldDot_lhs_0 (i : S4096x4096.Idx) (q : foldDot.contr.Idx) : (foldDot.lhsIdx i q 0).val = (i 0).val := by
  unfold DotDims.lhsIdx
  rw [dif_neg (show ¬(0 : Fin S4096x16.rank) ∈ foldDot.lhsBatch by decide),
    dif_pos (show (0 : Fin S4096x16.rank) ∈ foldDot.lhsNonContracting by decide)]
  rfl
theorem foldDot_lhs_1 (i : S4096x4096.Idx) (q : foldDot.contr.Idx) :
    (foldDot.lhsIdx i q 1).val = (q ⟨0, by decide⟩).val :=
  foldDot.lhsIdx_val_of_single rfl i q
theorem foldDot_rhs_0 (i : S4096x4096.Idx) (q : foldDot.contr.Idx) :
    (foldDot.rhsIdx i q 0).val = (q ⟨0, by decide⟩).val :=
  foldDot.rhsIdx_val_of_single rfl i q
theorem foldDot_rhs_1 (i : S4096x4096.Idx) (q : foldDot.contr.Idx) : (foldDot.rhsIdx i q 1).val = (i 1).val := by
  unfold DotDims.rhsIdx
  rw [dif_neg (show ¬(1 : Fin S16x4096.rank) ∈ foldDot.rhsBatch by decide),
    dif_pos (show (1 : Fin S16x4096.rank) ∈ foldDot.rhsNonContracting by decide)]
  rfl

/-- The product of the adapter's factors at `(o, i)`: `∑ r, B (o, r) · A (r, i)`. -/
theorem adapter_product_apply (B : FVec Ideal S4096x16 .f32) (A : FVec Ideal S16x4096 .f32) (o i : Fin 4096) :
    Host.dotGeneral (F := Ideal) foldDot none B A (ix2 o i) = ∑ r : Fin 16, B (ix2 o r) * A (ix2 r i) := by
  simp only [Host.dotGeneral]
  rw [Ideal.dotGeneral_apply, ← Equiv.sum_comp (contrEquiv1 foldDot 16 rfl rfl).symm]
  refine Finset.sum_congr rfl fun k _ => ?_
  have hk := contrEquiv1_symm_val foldDot 16 rfl rfl k
  have el : foldDot.lhsIdx (ix2 o i) ((contrEquiv1 foldDot 16 rfl rfl).symm k) = ix2 o k :=
    funext fun a => Fin.ext (by
      match a with
      | ⟨0, _⟩ => exact foldDot_lhs_0 _ _
      | ⟨1, _⟩ => exact (foldDot_lhs_1 _ _).trans hk)
  have er : foldDot.rhsIdx (ix2 o i) ((contrEquiv1 foldDot 16 rfl rfl).symm k) = ix2 k i :=
    funext fun a => Fin.ext (by
      match a with
      | ⟨0, _⟩ => exact (foldDot_rhs_0 _ _).trans hk
      | ⟨1, _⟩ => exact foldDot_rhs_1 _ _)
  rw [el, er]

/-- The weight plus the scaled product of the factors, at `(o, i)`. -/
theorem folded_weight_apply (W : FVec Ideal S4096x4096 .f32) (B : FVec Ideal S4096x16 .f32) (A : FVec Ideal S16x4096 .f32)
    (o i : Fin 4096) :
    (truncf .bf16 (addf W (mulf (broadcastInDim S4096x4096 ![] bcast_S_S4096x4096 (constant (F := Ideal) S_ .f32 0x3F800000#32))
        (Host.dotGeneral (F := Ideal) foldDot none B A))) bitsLt_bf16_f32 : FVec Ideal S4096x4096 .bf16) (ix2 o i)
      = W (ix2 o i) + Ideal.ofBits .f32 0x3F800000#32 * ∑ r : Fin 16, B (ix2 o r) * A (ix2 r i) :=
  congrArg (W (ix2 o i) + ·)
    (congrArg₂ (· * ·) (Cert.LibBcast.bid_scalar_apply _ bcast_S_S4096x4096 (ix2 o i)) (adapter_product_apply B A o i))

/-- The input flattened to rows: row `a` is position `(a / 4096, a mod 4096)`. -/
theorem rows_apply {α : Type} (x : S4x4096x4096.Idx → α) (a : Fin 16384) (k : Fin 4096) :
    shapeCast S16384x4096 x shapeCasts_S4x4096x4096_S16384x4096 (ix2 a k)
      = x (ix3 ⟨a.val / 4096, by have := a.isLt; omega⟩ ⟨a.val % 4096, Nat.mod_lt _ (by decide)⟩ k) :=
  shapeCast_apply x _ _ _ (by
    rw [Shape.rowMajor_val_two, Shape.rowMajor_val_three]
    show (a.val / 4096 * 4096 + a.val % 4096) * 4096 + k.val = a.val * 4096 + k.val
    omega)

/-- The rows unflattened again: position `(b, s)` is row `4096·b + s`. -/
theorem unrows_apply {α : Type} (y : S16384x4096.Idx → α) (b : Fin 4) (s o : Fin 4096) :
    shapeCast S4x4096x4096 y shapeCasts_S16384x4096_S4x4096x4096 (ix3 b s o)
      = y (ix2 ⟨b.val * 4096 + s.val, by have := b.isLt; have := s.isLt; omega⟩ o) :=
  shapeCast_apply y _ _ _ (by
    rw [Shape.rowMajor_val_two, Shape.rowMajor_val_three]
    show (b.val * 4096 + s.val) * 4096 + o.val = (b.val * 4096 + s.val) * 4096 + o.val
    rfl)

variable (m : (ℓ : Loc nD τ sig) → Buf (Elt Ideal) ℓ)

/-- The row matrix at `(a, k)`. -/
theorem xArr_apply (c : Dev nD) (a : Fin 16384) (k : Fin 4096) :
    xArr m c (ix2 a k) = argX m c
      (ix3 ⟨a.val / 4096, by have := a.isLt; omega⟩ ⟨a.val % 4096, Nat.mod_lt _ (by decide)⟩ k) := by
  rw [xArr_eq]
  exact rows_apply _ a k

/-- The row matrix at row `4096·b + s`: position `(b, s)` of the input. -/
theorem xArr_row_apply (c : Dev nD) (b : Fin 4) (s k : Fin 4096) :
    xArr m c (ix2 ⟨b.val * 4096 + s.val, by have := b.isLt; have := s.isLt; omega⟩ k) = argX m c (ix3 b s k) := by
  rw [xArr_apply]
  refine congrArg (argX m c) (funext fun a => Fin.ext ?_)
  have hs := s.isLt
  match a with
  | ⟨0, _⟩ => show (b.val * 4096 + s.val) / 4096 = b.val; omega
  | ⟨1, _⟩ => show (b.val * 4096 + s.val) % 4096 = s.val; omega
  | ⟨2, _⟩ => rfl

/-- The folded weight at `(o, i)`. -/
theorem wArr_apply (c : Dev nD) (o i : Fin 4096) :
    wArr m c (ix2 o i) = argW m c (ix2 o i)
      + Ideal.ofBits .f32 0x3F800000#32 * ∑ r : Fin 16, argB m c (ix2 o r) * argA m c (ix2 r i) := by
  rw [wArr_eq]
  exact folded_weight_apply _ _ _ o i

/-- The bias row at column `o`. -/
theorem bArr_apply (c : Dev nD) (o : Fin 4096) :
    bArr m c (ix2 (0 : Fin 1) o) = argBias m c (ix1 o) := by
  rw [bArr_eq]
  exact shapeCast_a_1a_apply _ _ 0 o

end Cert.KernelIdeal.LoraValue

end
-- ==== Proof.KernelValue.lean ====
/-
  The kernel's result array.

  Each output tile is written back once, after the last of its eight points, and the 16 × 4 tiles cover the
  `[16384, 4096]` array; so the array ends holding, at `(a, o)`, row `a` of the row matrix against row `o` of the folded
  weight plus the bias entry `o`. The one host line after the region unflattens the rows: position `(b, s, o)` of the
  result is entry `(4096·b + s, o)` of that array.
-/
import proofs.«150762_j67130338836603_2_alg».proof.Proof.KernelAcc
import proofs.«150762_j67130338836603_2_alg».proof.Proof.KernelArrays

noncomputable section

open Idealize.ShloMosaic Idealize.ShloMosaic.TcCoe Idealize.SL.Sem Idealize.ShloMosaic.ValueIdx
open Idealize.ShloMosaic.Pipeline (Dat)

namespace Cert.KernelIdeal.LoraValue

open Cert.KernelIdeal Cert.KernelIdeal.Gen

variable (m : (ℓ : Loc nD τ sig) → Buf (Elt Ideal) ℓ) (ρ : Dev nD → PrngReg)

/-- The kernel's result before it is unflattened, as one array. -/
def outArr (c : Dev nD) : Vec Ideal S16384x4096 .f32 := fun j => outEntry m c (j 0) (j 1)

/-- What the last of a tile's eight points writes back is that tile of `outArr`. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  have hN : t.val < 512 := lt_of_lt_of_eq t.isLt N_0
  obtain ⟨-, -, -, -, -, -, h30, h31⟩ := idx_facts t
  show (cfg0.win 3).cut (grid0.coords t) ((dats m 0 c).after 3 t) = _
  rw [after0_3]
  funext j
  rw [View.read_apply]
  refine (tile_entry_idx m c t h7 _).trans ?_
  unfold outArr
  refine congrArg₂ (outEntry m c) (Fin.ext ?_) (Fin.ext ?_)
  · show (t.val / 32 * 1024 + (j 0).val) % 16384 = win0_3.index t 0 * 1024 + 1 * (j 0).val
    have hj : (j 0).val < 1024 := (j 0).isLt
    rw [h30]; omega
  · show (t.val / 8 % 4 * 1024 + (j 1).val) % 4096 = win0_3.index t 1 * 1024 + 1 * (j 1).val
    have hj : (j 1).val < 1024 := (j 1).isLt
    rw [h31]; omega

/-- Every entry of the array lies in the tile some point writes back. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 512 := N_0
  obtain ⟨t, ht⟩ : ∃ t : Fin cfg0.N, t.val = (i 0).val / 1024 * 32 + (i 1).val / 1024 * 8 + 7 :=
    ⟨⟨(i 0).val / 1024 * 32 + (i 1).val / 1024 * 8 + 7, by rw [hN]; omega⟩, rfl⟩
  obtain ⟨-, -, -, -, -, -, h30, h31⟩ := idx_facts t
  refine ⟨t, (flush0_3 t).mpr (by omega), ?_⟩
  show i ∈ ((View.whole main_v8).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [h30]; omega
  | ⟨1, _⟩ =>
    show win0_3.index t (1 : Fin 2) * 1024 ≤ (i 1).val ∧ (i 1).val < win0_3.index t (1 : Fin 2) * 1024 + 1024
    rw [h31]; omega

/-- The result array after the region. -/
theorem final_out (c : Dev nD) : (dats m 0 c).arrAt 3 cfg0.N = outArr m c :=
  (dats m 0 c).arrAt_eq_of_cover 3 (outArr m c) (flushed_eq m c) cover

/-- The host line after the region unflattens it. -/
theorem tail_v9 (c : Dev nD) :
    Pipeline.afterTail₀ cfgs (dats m) 0 (V0 m) [hostOps1] c main_v9
      = shapeCast S4x4096x4096 (outArr m c) shapeCasts_S16384x4096_S4x4096x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N)
      (Proc.devRef .tc main_v8) = outArr m c :=
    (Pipeline.withArrays_arr spec0 launch0.win.arr_inj c _ _ 3).trans (final_out m c)
  rw [e]
  rfl

/-- The kernel's run, read: every weakly fair execution terminates with the result at the unflattened `outArr` and
    the arguments unchanged. -/
theorem run : θ_run defs (onTc (τ := τ) (main (F := Ideal))) ⟨m, fun _ => 0, ρ⟩ fun r => ∀ c : Dev nD,
      r.2.mem ((c.tc : Thread nD τ).loc main_v9)
          = shapeCast S4x4096x4096 (outArr m c) shapeCasts_S16384x4096_S4x4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (tail_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.LoraValue

end
-- ==== Proof.RefValue.lean ====
/-
  The reference's result, entry by entry, on the extended reals.

  At position `(b, s, o)` the reference computes the base product of row `(b, s)` of the input with row `o` of the weight,
  adds the bias entry `o`, and adds the scale times the adapter's chained product: the row against each row of `A`, then
  those `16` numbers against row `o` of `B`.
-/
import proofs.«150762_j67130338836603_2_alg».proof.Proof.Gen.ReferenceIdeal.Read
import Idealize.ShloMosaic.Lib.ValueIdx

noncomputable section

open Idealize.ShloMosaic Idealize.ShloMosaic.ValueIdx

namespace Cert.ReferenceIdeal.LoraRef

open Cert.ReferenceIdeal Cert.ReferenceIdeal.Read

/-- The reference's value at `(b, s, o)`. -/
def refEntry (x : FVec Ideal S4x4096x4096 .f32) (W : FVec Ideal S4096x4096 .f32) (bias : FVec Ideal S4096 .f32)
    (A : FVec Ideal S16x4096 .f32) (B : FVec Ideal S4096x16 .f32) (b : Fin 4) (s o : Fin 4096) : EReal :=
  (∑ k : Fin 4096, x (ix3 b s k) * W (ix2 o k) + bias (ix1 o))
    + Ideal.ofBits .f32 0x3F800000#32 * ∑ r : Fin 16, (∑ k : Fin 4096, x (ix3 b s k) * A (ix2 r k)) * B (ix2 o r)

/-- The reference's last stage read at `(b, s, o)`. -/
theorem ref_apply (x : FVec Ideal S4x4096x4096 .f32) (W : FVec Ideal S4096x4096 .f32) (bias : FVec Ideal S4096 .f32)
    (A : FVec Ideal S16x4096 .f32) (B : FVec Ideal S4096x16 .f32) (b : Fin 4) (s o : Fin 4096) :
    val_main_v8 (F := Ideal) x W bias A B (ix3 b s o) = refEntry x W bias A B b s o := by
  have e0l : ∀ k, lidx_main_v0 (ix3 b s o) k = ix3 b s k := fun k => funext fun a => Fin.ext (by
    match a with | ⟨0, _⟩ => rfl | ⟨1, _⟩ => rfl | ⟨2, _⟩ => rfl)
  have e0r : ∀ k, ridx_main_v0 (ix3 b s o) k = ix2 o k := fun k => funext fun a => Fin.ext (by
    match a with | ⟨0, _⟩ => rfl | ⟨1, _⟩ => rfl)
  have e1 : idx_main_v1 (idx_main_v2 (ix3 b s o)) = ix1 o := funext fun a => Fin.ext (by
    match a with | ⟨0, _⟩ => rfl)
  have e5l : ∀ r : Fin 16, lidx_main_v5 (ix3 b s o) r = ix3 b s r := fun r => funext fun a => Fin.ext (by
    match a with | ⟨0, _⟩ => rfl | ⟨1, _⟩ => rfl | ⟨2, _⟩ => rfl)
  have e5r : ∀ r : Fin 16, ridx_main_v5 (ix3 b s o) r = ix2 o r := fun r => funext fun a => Fin.ext (by
    match a with | ⟨0, _⟩ => rfl | ⟨1, _⟩ => rfl)
  have e4l : ∀ (r : Fin 16) k, lidx_main_v4 (ix3 b s r) k = ix3 b s k := fun r k => funext fun a => Fin.ext (by
    match a with | ⟨0, _⟩ => rfl | ⟨1, _⟩ => rfl | ⟨2, _⟩ => rfl)
  have e4r : ∀ (r : Fin 16) k, ridx_main_v4 (ix3 b s r) k = ix2 r k := fun r k => funext fun a => Fin.ext (by
    match a with | ⟨0, _⟩ => rfl | ⟨1, _⟩ => rfl)
  rw [val_main_v8_apply, val_main_v3_apply, val_main_v7_apply, val_main_v0_apply, val_main_v2_apply, val_main_v1_apply,
    val_main_v6_apply, val_main_cst_apply, val_main_v5_apply]
  simp only [val_main_v4_apply, e0l, e0r, e1, e5l, e5r, e4l, e4r, Ideal.addf_def, Ideal.mulf_def, Ideal.ofBits_def]
  rfl

end Cert.ReferenceIdeal.LoraRef

end
-- ==== Proof.Finite.lean ====
/-
  The precondition, read back: every entry of every input is a real number.

  The precondition tests `|a| < +∞` at every entry of each of the five inputs and takes the conjunction of all the
  tests. On the extended reals `|a| = max a (−a)`, which is `+∞` exactly when `a` is `+∞` or `−∞`; so where the test holds
  the entry is a real number.
-/
import proofs.«150762_j67130338836603_2_alg».proof.Pre_finite_inputs
import proofs.«150762_j67130338836603_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.LoraFinite

open Cert.Pre_finite_inputs

/-- The rank-0 shape has one index. -/
instance : Subsingleton S_.Idx := ⟨fun a b => funext fun d => d.elim0⟩

/-- The pattern of `+∞`. -/
theorem inf_pattern : Ideal.ofBits .f32 0x7F800000#32 = ⊤ := by simp [Ideal.ofBits, Ideal.ieee]

/-- The scale's constant (the pattern of `1.0`) denotes a real number. -/
theorem scale_real : ∃ t : ℝ, Ideal.ofBits .f32 0x3F800000#32 = t := by
  have h : Ideal.ofBits .f32 0x3F800000#32 = (((8388608 : ℝ) * ((2 : ℝ) ^ 23)⁻¹ : ℝ) : EReal) := by
    simp [Ideal.ofBits, Ideal.ieee]
  exact ⟨_, h⟩

/-- An extended real whose absolute value is below `+∞` is a real number. -/
theorem real_of_abs_lt_top (x : EReal) (h : Ideal.cmp .olt (max x (-x)) (Ideal.ofBits .f32 0x7F800000#32) = 1#1) :
    ∃ r : ℝ, x = r := by
  rw [inf_pattern] at h
  induction x using EReal.rec
  · simp [Ideal.cmp] at h
  · exact ⟨_, rfl⟩
  · simp [Ideal.cmp] at h

/-- Where the precondition holds, every entry of every input is a real number. -/
theorem all_real (a0 : FVec Ideal S4x4096x4096 .f32) (a1 : FVec Ideal S4096x4096 .f32) (a2 : FVec Ideal S4096 .f32)
    (a3 : FVec Ideal S16x4096 .f32) (a4 : FVec Ideal S4096x16 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r)
      ∧ (∀ i, ∃ r : ℝ, a3 i = r) ∧ (∀ i, ∃ r : ℝ, a4 i = r) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_⟩
  · exact real_of_abs_lt_top (a0 i) (Host.reduce_andi_all _ _ _ _ _ h0' i)
  · exact real_of_abs_lt_top (a1 i) (Host.reduce_andi_all _ _ _ _ _ h1 i)
  · exact real_of_abs_lt_top (a2 i) (Host.reduce_andi_all _ _ _ _ _ h2 i)
  · exact real_of_abs_lt_top (a3 i) (Host.reduce_andi_all _ _ _ _ _ h3 i)
  · exact real_of_abs_lt_top (a4 i) (Host.reduce_andi_all _ _ _ _ _ h4 i)

end Cert.LoraFinite

end
-- ==== Proof.LoraLaw.lean ====
/-
  Folding a low-rank adapter into the weight, on the extended reals.

  For a row `x`, a weight row `w`, a rank-`ρ` adapter with factors `a` (ρ × ι) and `b` (ρ), a scale `s` and a bias,
      ∑ i, x i · (w i + s · ∑ r, b r · a r i) + bias  =  (∑ i, x i · w i + bias) + s · ∑ r, (∑ i, x i · a r i) · b r.
  The left side multiplies the row into the folded weight; the right side adds the adapter's two small products to the
  base product. Joining them takes distributivity and an exchange of the two sums, which on the extended reals hold
  when every entry is a real number: the entries are replaced by real witnesses, the coercion is pushed outward through
  sums and products, and the identity is proved in the reals.
-/
import Mathlib

noncomputable section

namespace Cert.LoraLaw

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in the reals: distribute the row over the folded weight and exchange the two sums. -/
theorem fold_real {ι ρ : Type*} [Fintype ι] [Fintype ρ] (x w : ι → ℝ) (a : ρ → ι → ℝ) (b : ρ → ℝ) (s bias : ℝ) :
    (∑ i, x i * (w i + s * ∑ r, b r * a r i)) + bias
      = ((∑ i, x i * w i) + bias) + s * ∑ r, (∑ i, x i * a r i) * b r := by
  have key : ∑ i, x i * (s * ∑ r, b r * a r i) = s * ∑ r, (∑ i, x i * a r i) * b r := by
    simp only [Finset.mul_sum, Finset.sum_mul]
    rw [Finset.sum_comm]
    exact Finset.sum_congr rfl fun r _ => Finset.sum_congr rfl fun i _ => by ring
  simp only [mul_add, Finset.sum_add_distrib, key]
  ring

/-- The same identity on the extended reals, for entries that are all real numbers. -/
theorem fold {ι ρ : Type*} [Fintype ι] [Fintype ρ] (x w : ι → EReal) (a : ρ → ι → EReal) (b : ρ → EReal) (s bias : EReal)
    (hx : ∀ i, ∃ r : ℝ, x i = r) (hw : ∀ i, ∃ r : ℝ, w i = r) (ha : ∀ r i, ∃ t : ℝ, a r i = t)
    (hb : ∀ r, ∃ t : ℝ, b r = t) (hs : ∃ t : ℝ, s = t) (hbias : ∃ t : ℝ, bias = t) :
    (∑ i, x i * (w i + s * ∑ r, b r * a r i)) + bias
      = ((∑ i, x i * w i) + bias) + s * ∑ r, (∑ i, x i * a r i) * b r := by
  choose x' hx' using hx
  choose w' hw' using hw
  choose a' ha' using ha
  choose b' hb' using hb
  obtain ⟨s', rfl⟩ := hs
  obtain ⟨bias', rfl⟩ := hbias
  simp only [hx', hw', ha', hb', ← EReal.coe_mul, ← EReal.coe_add, ← coe_sum]
  exact congrArg _ (fold_real x' w' a' b' s' bias')

end Cert.LoraLaw

end
-- ==== Proof.Bridge.lean ====
/-
  The two results are one function of the inputs when every input entry is a real number.

  At position `(b, s, o)` the kernel's result is the row `x (b, s, ·)` against row `o` of the folded weight
  `W + s · B A`, plus the bias entry; the reference's is the base product plus the bias entry plus `s` times the chained
  adapter product. Folding the adapter into the weight is the identity of `Cert.LoraLaw.fold`, which holds for real
  entries: the precondition provides that.
-/
import proofs.«150762_j67130338836603_2_alg».proof.Proof.KernelValue
import proofs.«150762_j67130338836603_2_alg».proof.Proof.RefValue
import proofs.«150762_j67130338836603_2_alg».proof.Proof.Finite
import proofs.«150762_j67130338836603_2_alg».proof.Proof.LoraLaw

noncomputable section

open Idealize.ShloMosaic Idealize.ShloMosaic.TcCoe Idealize.SL.Sem Idealize.ShloMosaic.ValueIdx

namespace Cert.LoraBridge

open Cert.KernelIdeal Cert.KernelIdeal.Gen Cert.KernelIdeal.LoraValue

variable (m : (ℓ : Loc nD τ sig) → Buf (Elt Ideal) ℓ)

/-- The kernel's result at `(b, s, o)`: the input's row against the folded weight's row, plus the bias entry. -/
theorem kernel_apply (c : Dev nD) (b : Fin 4) (s o : Fin 4096) :
    shapeCast S4x4096x4096 (outArr m c) shapeCasts_S16384x4096_S4x4096x4096 (ix3 b s o)
      = ∑ k : Fin 4096, argX m c (ix3 b s k)
            * (argW m c (ix2 o k) + Ideal.ofBits .f32 0x3F800000#32 * ∑ r : Fin 16, argB m c (ix2 o r) * argA m c (ix2 r k))
          + argBias m c (ix1 o) := by
  rw [unrows_apply]
  unfold outArr outEntry
  show ∑ k : Fin 4096, xArr m c (ix2 ⟨b.val * 4096 + s.val, _⟩ k) * wArr m c (ix2 o k) + bArr m c (ix2 (0 : Fin 1) o) = _
  rw [bArr_apply]
  refine congrArg (· + _) (Finset.sum_congr rfl fun k _ => ?_)
  rw [xArr_row_apply, wArr_apply]

/-- With real entries everywhere, the kernel's result is the reference's last stage of the same inputs. -/
theorem result_eq (c : Dev nD) (hx : ∀ i, ∃ r : ℝ, argX m c i = r) (hW : ∀ i, ∃ r : ℝ, argW m c i = r)
    (hbias : ∀ i, ∃ r : ℝ, argBias m c i = r) (hA : ∀ i, ∃ r : ℝ, argA m c i = r) (hB : ∀ i, ∃ r : ℝ, argB m c i = r) :
    shapeCast S4x4096x4096 (outArr m c) shapeCasts_S16384x4096_S4x4096x4096
      = Cert.ReferenceIdeal.Read.val_main_v8 (F := Ideal) (argX m c) (argW m c) (argBias m c) (argA m c) (argB m c) := by
  funext i
  obtain ⟨b, s, o, rfl⟩ : ∃ (b : Fin 4) (s o : Fin 4096), i = ix3 b s o := ⟨i 0, i 1, i 2, eq_ix3 i⟩
  rw [kernel_apply, Cert.ReferenceIdeal.LoraRef.ref_apply]
  unfold Cert.ReferenceIdeal.LoraRef.refEntry
  exact Cert.LoraLaw.fold (fun k => argX m c (ix3 b s k)) (fun k => argW m c (ix2 o k)) (fun r k => argA m c (ix2 r k))
    (fun r => argB m c (ix2 o r)) (Ideal.ofBits .f32 0x3F800000#32) (argBias m c (ix1 o))
    (fun k => hx _) (fun k => hW _) (fun r k => hA _) (fun r => hB _) Cert.LoraFinite.scale_real (hbias _)

end Cert.LoraBridge

end
-- ==== Proof.lean ====
/-
  A linear layer with a low-rank adapter, computed two ways, agrees on the extended reals for finite inputs.

  The kernel folds the adapter into the weight first, `W' = W + s · (B A)`, and then runs one tiled matrix product
  `x W'ᵀ + bias`: the `[16384, 4096]` row matrix against `W'`, an output tile of 1024 × 1024 accumulated in a scratch
  tile over eight slabs of 512 of the contracted axis and finished with the bias row. The reference adds to the base
  product `x Wᵀ + bias` the scaled chained product `s · ((x Aᵀ) Bᵀ)`.

  The kernel's side: what each grid point leaves in the scratch and output tiles (KernelPieces, KernelSteps), read
  entry by entry (PayloadAt), summed over the eight slabs by induction on the grid point (KernelAcc), over the arrays
  the host lines before the region computed (KernelBlocks, KernelArrays); the tiles cover the result array, which the
  last host line unflattens (KernelValue). The reference's side: its stages read at an index (RefValue). The two are
  joined by distributing the row over the folded weight and exchanging the two sums (LoraLaw), which needs every
  entry to be a real number: that is what the precondition says (Finite). The idealization rewrote nothing, so it is
  preserved trivially; the frames are the generated ones and the reference's run with its result dropped.
-/
import proofs.«150762_j67130338836603_2_alg».proof.Defs
import proofs.«150762_j67130338836603_2_alg».proof.Proof.Gen.Kernel
import proofs.«150762_j67130338836603_2_alg».proof.Proof.Gen.Kernel.Skeleton
import proofs.«150762_j67130338836603_2_alg».proof.Proof.Gen.Kernel.Launch
import proofs.«150762_j67130338836603_2_alg».proof.Proof.Gen.Kernel.Points
import proofs.«150762_j67130338836603_2_alg».proof.Proof.Gen.Kernel.Frame
import proofs.«150762_j67130338836603_2_alg».proof.Proof.Gen.KernelIdeal
import proofs.«150762_j67130338836603_2_alg».proof.Proof.Gen.KernelIdeal.Skeleton
import proofs.«150762_j67130338836603_2_alg».proof.Proof.Gen.KernelIdeal.Launch
import proofs.«150762_j67130338836603_2_alg».proof.Proof.Gen.KernelIdeal.Points
import proofs.«150762_j67130338836603_2_alg».proof.Proof.Gen.KernelIdeal.Frame
import proofs.«150762_j67130338836603_2_alg».proof.Proof.Gen.ReferenceIdeal
import proofs.«150762_j67130338836603_2_alg».proof.Proof.Gen.Pre_finite_inputs
import proofs.«150762_j67130338836603_2_alg».proof.Proof.Gen.ReferenceIdeal.Run
import proofs.«150762_j67130338836603_2_alg».proof.Proof.Gen.ReferenceIdeal.Read
import proofs.«150762_j67130338836603_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the inputs, all of them finite, both programs end with the same result: the kernel's is
    the unflattened tiled product over the folded weight, the reference's its last stage of the same inputs, and the
    two are one function where every entry is a real number. -/
theorem algebraic : Cert.algebraic_KernelIdeal_ReferenceIdeal := by
  intro m ρ m' ρ' hpre hagree
  refine ⟨fun c => shapeCast Cert.KernelIdeal.S4x4096x4096 (Cert.KernelIdeal.LoraValue.outArr m c)
      Cert.KernelIdeal.Facts₀.shapeCasts_S16384x4096_S4x4096x4096, Cert.KernelIdeal.LoraValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  obtain ⟨hx, hW, hb, hA, hB⟩ := Cert.LoraFinite.all_real _ _ _ _ _ (hpre c)
  exact (Cert.LoraBridge.result_eq m c hx hW hb hA hB).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
